-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S4x3072x2048 : Shape := ⟨3, ![4, 3072, 2048]⟩
abbrev S16384 : Shape := ⟨1, ![16384]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S4x3072x2048 : S_.BroadcastsInDim S4x3072x2048 (![] : Fin 0 → Fin S4x3072x2048.rank)
  reducesTo_S4x3072x2048_S_d0_1_2 : S4x3072x2048.ReducesTo [0, 1, 2] S_

variable [Facts]

def fn {F : FTy → Type} [FloatOps F] (main_arg0 : FVec F S16384x2048 .f32) (main_arg1 : FVec F S4x3072x2048 .f32) (main_arg2 : IVec S16384 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S4x3072x2048 .f32 := Host.absf main_arg1
  let main_cst_0 : FVec F S_ .f32 := constant S_ .f32 0x7F800000#32
  let main_v5 : FVec F S4x3072x2048 .f32 := broadcastInDim S4x3072x2048 ![] bcast_S_S4x3072x2048 main_cst_0
  let main_v6 : IVec S4x3072x2048 1 := cmpf .olt main_v4 main_v5
  let main_c_1 : IVec S_ 1 := constantI S_ 1 1#1
  let main_v7 : IVec S_ 1 := (fun x v => Host.reduce IntOp.andi x v reducesTo_S4x3072x2048_S_d0_1_2 h_S_) main_v6 main_c_1
  let main_v8 : IVec S_ 1 := andi main_v3 main_v7
  main_v8
-- ==== Kernel.lean ====
abbrev S16384x2048 : Shape := ⟨2, ![16384, 2048]⟩
abbrev S4x3072x2048 : Shape := ⟨3, ![4, 3072, 2048]⟩
abbrev S16384 : Shape := ⟨1, ![16384]⟩
abbrev S16384x1 : Shape := ⟨2, ![16384, 1]⟩
abbrev S16384x3072 : Shape := ⟨2, ![16384, 3072]⟩
abbrev S1024x2048 : Shape := ⟨2, ![1024, 2048]⟩
abbrev S1x1024x2048 : Shape := ⟨3, ![1, 1024, 2048]⟩
abbrev S1024x1 : Shape := ⟨2, ![1024, 1]⟩
abbrev S1024x1024 : Shape := ⟨2, ![1024, 1024]⟩
abbrev S2048x1024 : Shape := ⟨2, ![2048, 1024]⟩

abbrev nBuf : Space → Nat
  | .hbm => 7
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S4x3072x2048, .f32⟩
  | .hbm, ⟨2, _⟩ => ⟨S16384, .i32⟩
  | .hbm, ⟨3, _⟩ => ⟨S16384x2048, .bf16⟩
  | .hbm, ⟨4, _⟩ => ⟨S4x3072x2048, .bf16⟩
  | .hbm, ⟨5, _⟩ => ⟨S16384x1, .i32⟩
  | .hbm, ⟨6, _⟩ => ⟨S16384x3072, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1, .i32⟩
  | .local _ .vmem, ⟨5, _⟩ => ⟨S1024x1, .i32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 3, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S16384_S16384x1 : S16384.ShapeCasts S16384x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  transposes_S1024x2048_p1_0_S2048x1024 : S1024x2048.Transposes [1, 0] S2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  natLt_1_32 : 1 < 32
  broadcasts_S1024x1_S1024x1024 : S1024x1.Broadcasts S1024x1024
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .bf16 = 32 ∨ (Rect.block (s := S16384x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S4x3072x2048.size a
  hwx0_1 : ∀ i : grid0.Coords, EltTy.bits .bf16 = 32 ∨ (Rect.block (s := S4x3072x2048) S1x1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .i32 = 32 ∨ (Rect.block (s := S16384x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x3072.size a
  hwx0_3 : ∀ i : grid0.Coords, EltTy.bits .f32 = 32 ∨ (Rect.block (s := S16384x3072) S1024x1024.size (cc0_transform_3 i) (hinb0_3 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x2048 : Shape := ⟨2, ![16384, 2048]⟩
abbrev S4x3072x2048 : Shape := ⟨3, ![4, 3072, 2048]⟩
abbrev S16384 : Shape := ⟨1, ![16384]⟩
abbrev S_ : Shape := ⟨0, ![]⟩
abbrev S16384x3072 : Shape := ⟨2, ![16384, 3072]⟩
abbrev S16384x1 : Shape := ⟨2, ![16384, 1]⟩
abbrev S1x3072x2048 : Shape := ⟨3, ![1, 3072, 2048]⟩
abbrev S3072x2048 : Shape := ⟨2, ![3072, 2048]⟩

abbrev nBuf : Space → Nat
  | .hbm => 57
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x3072x2048, .f32⟩
  | .hbm, ⟨2, _⟩ => ⟨S16384, .i32⟩
  | .hbm, ⟨3, _⟩ => ⟨S_, .f32⟩
  | .hbm, ⟨4, _⟩ => ⟨S16384x3072, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S16384x1, .i1⟩
  | .hbm, ⟨9, _⟩ => ⟨S_, .f32⟩
  | .hbm, ⟨10, _⟩ => ⟨S_, .f32⟩
  | .hbm, ⟨11, _⟩ => ⟨S16384x2048, .i1⟩
  | .hbm, ⟨12, _⟩ => ⟨S16384x2048, .f32⟩
  | .hbm, ⟨13, _⟩ => ⟨S16384x2048, .f32⟩
  | .hbm, ⟨14, _⟩ => ⟨S1x3072x2048, .f32⟩
  | .hbm, ⟨15, _⟩ => ⟨S3072x2048, .f32⟩
  | .hbm, ⟨16, _⟩ => ⟨S16384x3072, .f32⟩
  | .hbm, ⟨17, _⟩ => ⟨S16384x3072, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S16384x1, .i1⟩
  | .hbm, ⟨22, _⟩ => ⟨S_, .f32⟩
  | .hbm, ⟨23, _⟩ => ⟨S_, .f32⟩
  | .hbm, ⟨24, _⟩ => ⟨S16384x2048, .i1⟩
  | .hbm, ⟨25, _⟩ => ⟨S16384x2048, .f32⟩
  | .hbm, ⟨26, _⟩ => ⟨S16384x2048, .f32⟩
  | .hbm, ⟨27, _⟩ => ⟨S1x3072x2048, .f32⟩
  | .hbm, ⟨28, _⟩ => ⟨S3072x2048, .f32⟩
  | .hbm, ⟨29, _⟩ => ⟨S16384x3072, .f32⟩
  | .hbm, ⟨30, _⟩ => ⟨S16384x3072, .f32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S16384x1, .i1⟩
  | .hbm, ⟨35, _⟩ => ⟨S_, .f32⟩
  | .hbm, ⟨36, _⟩ => ⟨S_, .f32⟩
  | .hbm, ⟨37, _⟩ => ⟨S16384x2048, .i1⟩
  | .hbm, ⟨38, _⟩ => ⟨S16384x2048, .f32⟩
  | .hbm, ⟨39, _⟩ => ⟨S16384x2048, .f32⟩
  | .hbm, ⟨40, _⟩ => ⟨S1x3072x2048, .f32⟩
  | .hbm, ⟨41, _⟩ => ⟨S3072x2048, .f32⟩
  | .hbm, ⟨42, _⟩ => ⟨S16384x3072, .f32⟩
  | .hbm, ⟨43, _⟩ => ⟨S16384x3072, .f32⟩
  | .hbm, ⟨44, _⟩ => ⟨S_, .i32⟩
  | .hbm, ⟨45, _⟩ => ⟨S16384, .i32⟩
  | .hbm, ⟨46, _⟩ => ⟨S16384, .i1⟩
  | .hbm, ⟨47, _⟩ => ⟨S16384x1, .i1⟩
  | .hbm, ⟨48, _⟩ => ⟨S_, .f32⟩
  | .hbm, ⟨49, _⟩ => ⟨S_, .f32⟩
  | .hbm, ⟨50, _⟩ => ⟨S16384x2048, .i1⟩
  | .hbm, ⟨51, _⟩ => ⟨S16384x2048, .f32⟩
  | .hbm, ⟨52, _⟩ => ⟨S16384x2048, .f32⟩
  | .hbm, ⟨53, _⟩ => ⟨S1x3072x2048, .f32⟩
  | .hbm, ⟨54, _⟩ => ⟨S3072x2048, .f32⟩
  | .hbm, ⟨55, _⟩ => ⟨S16384x3072, .f32⟩
  | .hbm, ⟨56, _⟩ => ⟨S16384x3072, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩

abbrev nD : Nat := 1
abbrev τ : Topo := Topo.v7x

variable {F : FTy → Type} [FloatOps F]

class Facts₀ : Prop where
  bcast_S_S16384x3072 : S_.BroadcastsInDim S16384x3072 (![] : Fin 0 → Fin S16384x3072.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x2048_0_1 : S16384x1.BroadcastsInDim S16384x2048 (![0, 1] : Fin 2 → Fin S16384x2048.rank)
  bcast_S_S16384x2048 : S_.BroadcastsInDim S16384x2048 (![] : Fin 0 → Fin S16384x2048.rank)
  slices_S4x3072x2048_S1x3072x2048_0_0_0 : S4x3072x2048.Slices ![0, 0, 0] S1x3072x2048
  shapeCasts_S1x3072x2048_S3072x2048 : S1x3072x2048.ShapeCasts S3072x2048
  slices_S4x3072x2048_S1x3072x2048_1_0_0 : S4x3072x2048.Slices ![1, 0, 0] S1x3072x2048
  slices_S4x3072x2048_S1x3072x2048_2_0_0 : S4x3072x2048.Slices ![2, 0, 0] S1x3072x2048
  slices_S4x3072x2048_S1x3072x2048_3_0_0 : S4x3072x2048.Slices ![3, 0, 0] S1x3072x2048
  dot_S16384x2048_S3072x2048_S16384x3072_1_1_0_0_n_n_wf : DotDims.WF S16384x2048 S3072x2048 S16384x3072 [1] [1] [0] [0] [] []

variable [Facts₀]

def dot_S16384x2048_S3072x2048_S16384x3072_1_1_0_0_n_n : DotDims S16384x2048 S3072x2048 S16384x3072 where
  lhsContracting := [1]
  rhsContracting := [1]
  lhsNonContracting := [0]
  rhsNonContracting := [0]
  lhsBatch := []
  rhsBatch := []
  wf := dot_S16384x2048_S3072x2048_S16384x3072_1_1_0_0_n_n_wf

class Facts : Prop extends Facts₀ where

variable [Facts]
-- ==== Proof.Accumulator.lean ====
/-
  The accumulator carried across the experts' grid points.

  The grid is (token tile, output tile, expert), the expert axis innermost: point `t` works on expert `t % 4` of the
  output tile `t / 4`. A [1024, 1024] scratch block is carried from point to point. At an expert-0 point the body
  stores the zero block into it and then adds that point's term; at every other point it adds the point's term to what
  the point before left; at an expert-3 point it also copies the scratch into the output tile, which is written back
  there and only there. Each of these is ONE payload of the body, `k0_pay2`: the scratch's previous contents (the zero
  block `k0_pay1` at a reset) plus the point's term.

  Read back here, for any float instance: what each case of the body leaves in the scratch and in the output tile as
  that payload of the point's input blocks (`reset_leaves`, `step_leaves`, `last_leaves`, `last_copies`); what a
  point leaves in the scratch whatever its case (`leaves_reset`, `leaves_step`); and that the block an expert-3 point
  writes back is the scratch's contents there, which is the fold of the four points' payloads from the reset
  (`flushed_fold`).
-/
import proofs.«175341_j76811195122155_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case of the body leaves -/

/-- An expert-0 point: the scratch is reset to the zero block, read back, and left at the zero block plus the point's
    term — the second store's payload over the first's. -/
theorem reset_leaves (c : Dev nD) (i : grid0.Coords) (a3 : Memref sig .tc .vmem S1024x2048 .bf16) (h3 : a3.IsWhole)
    (a4 : Memref sig .tc .vmem S1x1024x2048 .bf16) (h4 : a4.IsWhole) (a5 : Memref sig .tc .vmem S1024x1 .i32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 : Vec F S1024x2048 .bf16) (x1 : Vec F S1x1024x2048 .bf16) (x2 : Vec F S1024x1 .i32) :
    sout0_A_0 c i a3 h3 a4 h4 a5 h5 a6 h6 a7 h7 hc0 hc1 x0 x1 x2 = k0_pay2 i x0 x1 x2 k0_pay1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, h5.read_unread,
    View.ld_unit_zero (S := S1024x2048) hz2, View.ld_unit_zero (S := S1x1024x2048) hz3,
    View.ld_unit_zero (S := S1024x1) hz2]

/-- An expert-1 or expert-2 point: the scratch is left at what it held plus the point's term. -/
theorem step_leaves (c : Dev nD) (i : grid0.Coords) (a3 : Memref sig .tc .vmem S1024x2048 .bf16) (h3 : a3.IsWhole)
    (a4 : Memref sig .tc .vmem S1x1024x2048 .bf16) (h4 : a4.IsWhole) (a5 : Memref sig .tc .vmem S1024x1 .i32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 : Vec F S1024x2048 .bf16) (x1 : Vec F S1x1024x2048 .bf16) (x2 : Vec F S1024x1 .i32) (xs0 : Vec F S1024x1024 .f32) :
    sout0_B_0 c i a3 h3 a4 h4 a5 h5 a6 h6 a7 h7 hc0 hc1 x0 x1 x2 xs0 = k0_pay2 i x0 x1 x2 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz2]
  simp only [View.readAt_eq_ld, h3.read_unread, h4.read_unread, h5.read_unread, h7.read_unread,
    View.ld_unit_zero (S := S1024x2048) hz2, View.ld_unit_zero (S := S1x1024x2048) hz3,
    View.ld_unit_zero (S := S1024x1) hz2, View.ld_unit_zero (S := S1024x1024) hz2]

/-- An expert-3 point leaves the scratch the same way … -/
theorem last_leaves (c : Dev nD) (i : grid0.Coords) (a3 : Memref sig .tc .vmem S1024x2048 .bf16) (h3 : a3.IsWhole)
    (a4 : Memref sig .tc .vmem S1x1024x2048 .bf16) (h4 : a4.IsWhole) (a5 : Memref sig .tc .vmem S1024x1 .i32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x2048 .bf16) (x1 : Vec F S1x1024x2048 .bf16) (x2 : Vec F S1024x1 .i32) (xs0 : Vec F S1024x1024 .f32) :
    sout0_C_0 c i a3 h3 a4 h4 a5 h5 a6 h6 a7 h7 hc0 hc1 x0 x1 x2 xs0 = k0_pay2 i x0 x1 x2 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz2]
  simp only [View.readAt_eq_ld, h3.read_unread, h4.read_unread, h5.read_unread, h7.read_unread,
    View.ld_unit_zero (S := S1024x2048) hz2, View.ld_unit_zero (S := S1x1024x2048) hz3,
    View.ld_unit_zero (S := S1024x1) hz2, View.ld_unit_zero (S := S1024x1024) hz2]

/-- … and copies it into the output tile: the tile holds the scratch's new contents, read back after the store. -/
theorem last_copies (c : Dev nD) (i : grid0.Coords) (a3 : Memref sig .tc .vmem S1024x2048 .bf16) (h3 : a3.IsWhole)
    (a4 : Memref sig .tc .vmem S1x1024x2048 .bf16) (h4 : a4.IsWhole) (a5 : Memref sig .tc .vmem S1024x1 .i32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x2048 .bf16) (x1 : Vec F S1x1024x2048 .bf16) (x2 : Vec F S1024x1 .i32) (xs0 : Vec F S1024x1024 .f32) :
    out0_C_3 c i a3 h3 a4 h4 a5 h5 a6 h6 a7 h7 hc0 hc1 x0 x1 x2 xs0 = k0_pay2 i x0 x1 x2 xs0 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz2, View.readCov_unit_zero (S := S1024x1024) _ hz2]
  simp only [View.readAt_eq_ld, h3.read_unread, h4.read_unread, h5.read_unread, h7.read_unread,
    View.ld_unit_zero (S := S1024x2048) hz2, View.ld_unit_zero (S := S1x1024x2048) hz3,
    View.ld_unit_zero (S := S1024x1) hz2, View.ld_unit_zero (S := S1024x1024) hz2]

/-! ## What a point leaves in the scratch, whatever its case -/

variable (m : (ℓ : Loc nD τ sig) → Buf (Elt F) ℓ)

/-- The point's term added to the scratch's contents `acc`: the payload at the point's coordinates and input blocks. -/
def added (c : Dev nD) (n : ℕ) (hb : n < cfg0.N) (acc : Vec F S1024x1024 .f32) : Vec F S1024x1024 .f32 :=
  k0_pay2 (grid0.coords (⟨n, hb⟩ : Fin cfg0.N)) (iblk m c 0 (⟨n, hb⟩ : Fin cfg0.N)) (iblk m c 1 (⟨n, hb⟩ : Fin cfg0.N))
    (iblk m c 2 (⟨n, hb⟩ : Fin cfg0.N)) acc

/-- At an expert-0 point the scratch is left at the point's term over the zero block, whatever it held. -/
theorem leaves_reset (c : Dev nD) (n : ℕ) (hb : n < cfg0.N) (acc : Vec F S1024x1024 .f32) (h0 : n % 4 = 0) :
    Value.scAt0_0 m c n hb acc = added m c n hb k0_pay1 := by
  have h1 : ¬n % 4 = 3 := by omega
  unfold Value.scAt0_0
  rw [dif_pos h0, dif_neg h1]
  exact reset_leaves c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N))

/-- At any other point it is left at the point's term over what it held. -/
theorem leaves_step (c : Dev nD) (n : ℕ) (hb : n < cfg0.N) (acc : Vec F S1024x1024 .f32) (h0 : ¬n % 4 = 0) :
    Value.scAt0_0 m c n hb acc = added m c n hb acc := by
  unfold Value.scAt0_0
  rw [dif_neg h0]
  by_cases h1 : n % 4 = 3
  · rw [dif_pos h1]
    exact last_leaves c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc
  · rw [dif_neg h1]
    exact step_leaves c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc

/-! ## The block an expert-3 point writes back -/

/-- At an expert-3 point the output tile holds what the scratch holds. -/
theorem tile_eq_scratch (c : Dev nD) (t : Fin cfg0.N) (h0 : ¬t.val % 4 = 0) (h3 : t.val % 4 = 3) :
    (outsAt0 m c t.val t.isLt).1 = (outsAt0 m c t.val t.isLt).2 := by
  rw [outsAt0_C m c t h0 h3]
  dsimp only
  exact (last_copies c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).trans
    (last_leaves c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).symm

/-- THE WRITE-BACK: the block an expert-3 point `t` writes back is the fold of the scratch over the run of four points
    that starts at the reset `4·(t / 4)`. -/
theorem flushed_fold (c : Dev nD) (t : Fin cfg0.N) (h3 : t.val % 4 = 3) (hb : 4 * (t.val / 4) + t.val % 4 < cfg0.N) :
    (dats m 0 c).flushed 3 t = (cfg0.win 3).cut (grid0.coords t)
      (Pipeline.accAt (fun n h => Value.scAt0_0 m c n h (VS0_0.read (Elt F) VS0_0.junk)) (Value.scAt0_0 m c)
        (4 * (t.val / 4)) (t.val % 4) hb) := by
  have h0 : ¬t.val % 4 = 0 := by omega
  rw [Value.flushed3 m c t]
  exact congrArg ((cfg0.win 3).cut (grid0.coords t)) ((tile_eq_scratch m c t h0 h3).trans (Value.soutsAt0_0_eq m c t))

end Cert.KernelIdeal.Acc

end
-- ==== Proof.LibColumns.lean ====
/-
  Two layout operations of a column read at coordinates: a vector made a column, and a column spread over the columns
  of a matrix (what a keep-dimensions row reduction is followed by).
-/
import Idealize.ShloMosaic.Lib.ValueLayout

namespace Idealize.ShloMosaic.ValueIdx

open Idealize.ShloMosaic

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Routing.lean ====
/-
  Tokens routed to one of four experts, each expert a dense linear map.

  A token `t` with features `x[t, ·]` and expert id `id[t]` is projected by the weights of its own expert:
  `out[t, o] = Σ_e [id[t] = e] · Σ_k x[t, k] · W[e, o, k]`. Written as a sum over the experts of GATED projections
  (`share`), the sum taken in the order e = 0, 1, 2, 3 from zero — the order in which both programs add the experts up.

  A masked projection can be formed in two ways. Project first and mask the result: `(Σ_k x[t,k]·W[e,o,k]) · g` with
  `g` one or zero. Or mask the token's features first and project what is left: `Σ_k (g ? x[t,k] : 0) · W[e,o,k]`.
  On the extended reals both are `if id[t] = e then Σ_k x[t,k]·W[e,o,k] else 0`, with no finiteness asked: the only
  facts used are `a · 1 = a`, `a · 0 = 0` and `0 · b = 0`, which hold for every extended real, the infinities
  included (`mask_after`, `mask_before`).

  The mask itself is a word: an integer comparison's bit, which one program widens and converts to a float
  (`mask_word`: the float is 1 or 0) and the other selects on (`select_on_eq`).
-/
import Idealize.ShloMosaic.Lib.ValueIdx
import Idealize.ShloMosaic.PureOps.Ideal.Laws

noncomputable section

open scoped BigOperators

namespace Cert.Routing

open Idealize.ShloMosaic Idealize.ShloMosaic.ValueIdx

/-- The tokens' features [16384, 2048], the experts' weights [4, 3072, 2048] (expert, output feature, input feature),
    the tokens' expert ids [16384], and the projected tokens [16384, 3072]. -/
abbrev Tokens := (⟨2, ![16384, 2048]⟩ : Shape).Idx → EReal
abbrev Weights := (⟨3, ![4, 3072, 2048]⟩ : Shape).Idx → EReal
abbrev Ids := (⟨1, ![16384]⟩ : Shape).Idx → BitVec 32
abbrev Projected := (⟨2, ![16384, 3072]⟩ : Shape).Idx → EReal

/-- Expert `e`'s dense projection of token `t`, output feature `o`: `Σ_k x[t, k] · W[e, o, k]`. -/
def proj (x : Tokens) (W : Weights) (e : Fin 4) (t : Fin 16384) (o : Fin 3072) : EReal :=
  ∑ k : Fin 2048, x (ix2 t k) * W (ix3 e o k)

/-- Expert `e`'s share of token `t`: its projection if the token is routed to it, zero if not. -/
def share (x : Tokens) (W : Weights) (id : Ids) (e : Fin 4) (t : Fin 16384) (o : Fin 3072) : EReal :=
  if id (ix1 t) = BitVec.ofNat 32 e.val then proj x W e t o else 0

/-- The same share with the expert, the token and the output feature given as natural numbers (zero outside the
    ranges): the form a sum over a run of grid points, which counts in naturals, is stated in. -/
def shareN (x : Tokens) (W : Weights) (id : Ids) (e t o : ℕ) : EReal :=
  if h : e < 4 ∧ t < 16384 ∧ o < 3072 then share x W id ⟨e, h.1⟩ ⟨t, h.2.1⟩ ⟨o, h.2.2⟩ else 0

theorem shareN_eq (x : Tokens) (W : Weights) (id : Ids) (e : Fin 4) (t : Fin 16384) (o : Fin 3072) :
    shareN x W id e.val t.val o.val = share x W id e t o := by
  unfold shareN
  rw [dif_pos ⟨e.isLt, t.isLt, o.isLt⟩]

/-- THE PROJECTED TOKENS: zero plus the four experts' shares, expert 0 first. -/
def out (x : Tokens) (W : Weights) (id : Ids) : Projected :=
  fun i => 0 + ∑ s ∈ Finset.range 4, shareN x W id s (i 0).val (i 1).val

/-- The same as the chain `(((0 + s₀) + s₁) + s₂) + s₃` of the four shares. -/
theorem out_apply (x : Tokens) (W : Weights) (id : Ids) (i : (⟨2, ![16384, 3072]⟩ : Shape).Idx) :
    out x W id i = 0 + share x W id 0 (i 0) (i 1) + share x W id 1 (i 0) (i 1) + share x W id 2 (i 0) (i 1)
      + share x W id 3 (i 0) (i 1) := by
  have e0 : shareN x W id 0 (i 0).val (i 1).val = share x W id 0 (i 0) (i 1) := shareN_eq x W id 0 (i 0) (i 1)
  have e1 : shareN x W id 1 (i 0).val (i 1).val = share x W id 1 (i 0) (i 1) := shareN_eq x W id 1 (i 0) (i 1)
  have e2 : shareN x W id 2 (i 0).val (i 1).val = share x W id 2 (i 0) (i 1) := shareN_eq x W id 2 (i 0) (i 1)
  have e3 : shareN x W id 3 (i 0).val (i 1).val = share x W id 3 (i 0) (i 1) := shareN_eq x W id 3 (i 0) (i 1)
  unfold out
  rw [Finset.sum_range_succ, Finset.sum_range_succ, Finset.sum_range_succ, Finset.sum_range_succ,
    Finset.sum_range_zero, e0, e1, e2, e3, zero_add]

/-! ## The two ways to mask a projection -/

/-- Project, then mask: a sum of products times a mask that is one or zero. -/
theorem mask_after {ι : Type*} [Fintype ι] (c : Prop) [Decidable c] (a b : ι → EReal) :
    (∑ k, a k * b k) * (if c then (1 : EReal) else 0) = if c then ∑ k, a k * b k else 0 := by
  split
  · rw [mul_one]
  · rw [mul_zero]

/-- Mask, then project: each left factor kept or replaced by zero before the products are summed. -/
theorem mask_before {ι : Type*} [Fintype ι] (c : Prop) [Decidable c] (a b : ι → EReal) :
    (∑ k, (if c then a k else 0) * b k) = if c then ∑ k, a k * b k else 0 := by
  split
  · rfl
  · simp only [zero_mul, Finset.sum_const_zero]

/-! ## The mask as a word -/

/-- An equality test's bit, widened to 32 bits and converted as a signed integer, is the float one or zero. -/
theorem mask_word (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · rw [if_pos h]
    have hb : IntOp.cmpi .eq a b = 1#1 := by subst h; simp [IntOp.cmpi]
    rw [hb, show ((1#1 : BitVec 1).setWidth 32).toInt = 1 from by decide]
    norm_num
  · rw [if_neg h]
    have hb : IntOp.cmpi .eq a b = 0#1 := by
      unfold IntOp.cmpi
      rw [show (a == b) = false from beq_eq_false_iff_ne.mpr h]
      rfl
    rw [hb, show ((0#1 : BitVec 1).setWidth 32).toInt = 0 from by decide]
    norm_num

/-- A select on an equality test's bit is the `if` on the equality. -/
theorem select_on_eq {α : Type} (a b : BitVec 32) (u v : α) :
    Scalar.select (IntOp.cmpi .eq a b) u v = if a = b then u else v := by
  unfold Scalar.select
  by_cases h : a = b
  · have hb : IntOp.cmpi .eq a b = 1#1 := by subst h; simp [IntOp.cmpi]
    rw [hb, if_pos (show (1#1 : BitVec 1) = 1 from rfl), if_pos h]
  · have hb : IntOp.cmpi .eq a b = 0#1 := by
      unfold IntOp.cmpi
      rw [show (a == b) = false from beq_eq_false_iff_ne.mpr h]
      rfl
    rw [hb, if_neg (show ¬(0#1 : BitVec 1) = 1 from by decide), if_neg h]

end Cert.Routing

end
-- ==== Proof.Term.lean ====
/-
  One grid point's term, read at an entry of the [1024, 1024] tile.

  At a point with expert coordinate `e` the body loads a block `xb` [1024, 2048] of token features, a block `wb`
  [1, 1024, 2048] of expert `e`'s weights (output feature, input feature) and a column `idb` [1024, 1] of expert ids,
  and adds to the scratch's contents `acc` the product `xb · wbᵀ` with row `p` multiplied by the mask of token `p`.
  At the ideal values, entry (p, q) of the result is

      acc[p, q] + (Σ_k xb[p, k] · wb[0, q, k]) · (if idb[p, 0] = e then 1 else 0):

  the matrix product into a zero accumulator is the plain sum over the contracted axis; the transposed weight block at
  (k, q) is the block at (q, k), and dropping its leading unit axis puts a 0 in front; the mask column [1024, 1] spread
  over the tile's columns reads its one column; and the mask is an equality test's bit made a float (`Routing.mask_word`).
  The zero block a reset stores is zero everywhere (`zero_block_apply`).
-/
import proofs.«175341_j76811195122155_1_alg».proof.Proof.Gen.KernelIdeal.Skeleton
import proofs.«175341_j76811195122155_1_alg».proof.Proof.LibColumns
import proofs.«175341_j76811195122155_1_alg».proof.Proof.Routing
import Idealize.ShloMosaic.Lib.ValueLayout
import Idealize.ShloMosaic.PureOps.Ideal.Laws

noncomputable section

open scoped BigOperators

namespace Cert.KernelIdeal.Term

open Cert.KernelIdeal Cert.KernelIdeal.Gen Idealize.ShloMosaic Idealize.ShloMosaic.ValueIdx

/-- The zero block a reset stores is zero at every entry. -/
theorem zero_block_apply (j : S1024x1024.Idx) : (k0_pay1 (F := Ideal)) j = 0 := by
  unfold k0_pay1
  simp only [shapeCast_self]
  show Ideal.ofBits .f32 0x00000000#32 = 0
  exact Ideal.ofBits_zero_f32

/-! ## The product's dimension numbers: rows of the left block against rows of the transposed right block -/

/-- The left operand is read at the output's row … -/
theorem lhs_row (j : S1024x1024.Idx) (k : dot_S1024x2048_S2048x1024_S1024x1024_1_0_0_1_n_n.contr.Idx) :
    (dot_S1024x2048_S2048x1024_S1024x1024_1_0_0_1_n_n.lhsIdx j k 0).val = (j 0).val := by
  unfold DotDims.lhsIdx
  rw [dif_neg (show ¬(0 : Fin S1024x2048.rank) ∈ dot_S1024x2048_S2048x1024_S1024x1024_1_0_0_1_n_n.lhsBatch by decide),
    dif_pos (show (0 : Fin S1024x2048.rank) ∈ dot_S1024x2048_S2048x1024_S1024x1024_1_0_0_1_n_n.lhsNonContracting by decide)]
  rfl
/-- … and the contracted position; -/
theorem lhs_depth (j : S1024x1024.Idx) (k : dot_S1024x2048_S2048x1024_S1024x1024_1_0_0_1_n_n.contr.Idx) :
    (dot_S1024x2048_S2048x1024_S1024x1024_1_0_0_1_n_n.lhsIdx j k 1).val = (k ⟨0, by decide⟩).val :=
  dot_S1024x2048_S2048x1024_S1024x1024_1_0_0_1_n_n.lhsIdx_val_of_single rfl j k
/-- the right operand at the contracted position … -/
theorem rhs_depth (j : S1024x1024.Idx) (k : dot_S1024x2048_S2048x1024_S1024x1024_1_0_0_1_n_n.contr.Idx) :
    (dot_S1024x2048_S2048x1024_S1024x1024_1_0_0_1_n_n.rhsIdx j k 0).val = (k ⟨0, by decide⟩).val :=
  dot_S1024x2048_S2048x1024_S1024x1024_1_0_0_1_n_n.rhsIdx_val_of_single rfl j k
/-- … and the output's column. -/
theorem rhs_col (j : S1024x1024.Idx) (k : dot_S1024x2048_S2048x1024_S1024x1024_1_0_0_1_n_n.contr.Idx) :
    (dot_S1024x2048_S2048x1024_S1024x1024_1_0_0_1_n_n.rhsIdx j k 1).val = (j 1).val := by
  unfold DotDims.rhsIdx
  rw [dif_neg (show ¬(1 : Fin S2048x1024.rank) ∈ dot_S1024x2048_S2048x1024_S1024x1024_1_0_0_1_n_n.rhsBatch by decide),
    dif_pos (show (1 : Fin S2048x1024.rank) ∈ dot_S1024x2048_S2048x1024_S1024x1024_1_0_0_1_n_n.rhsNonContracting by decide)]
  rfl

/-- The block product at (p, q): `Σ_k xb[p, k] · wb[0, q, k]`. -/
theorem product_apply (v3 : FVec Ideal S1024x2048 .bf16) (v5 : FVec Ideal S1x1024x2048 .bf16) (p q : Fin 1024) :
    FloatOps.matmul dot_S1024x2048_S2048x1024_S1024x1024_1_0_0_1_n_n none v3
        (transpose S2048x1024 [1, 0] (shapeCast S1024x2048 v5 shapeCasts_S1x1024x2048_S1024x2048)
          transposes_S1024x2048_p1_0_S2048x1024)
        (constant S1024x1024 .f32 0x00000000#32) (ix2 p q)
      = ∑ k : Fin 2048, v3 (ix2 p k) * v5 (ix3 (0 : Fin 1) q k) := by
  rw [Ideal.matmul_constant_zero_apply,
    ← Equiv.sum_comp (contrEquiv1 dot_S1024x2048_S2048x1024_S1024x1024_1_0_0_1_n_n 2048 rfl rfl).symm]
  refine Finset.sum_congr rfl fun k _ => ?_
  have hk := contrEquiv1_symm_val dot_S1024x2048_S2048x1024_S1024x1024_1_0_0_1_n_n 2048 rfl rfl k
  have el : dot_S1024x2048_S2048x1024_S1024x1024_1_0_0_1_n_n.lhsIdx (ix2 p q) ((contrEquiv1 dot_S1024x2048_S2048x1024_S1024x1024_1_0_0_1_n_n 2048 rfl rfl).symm k) = ix2 p k :=
    funext fun a => Fin.ext (by
      match a with
      | ⟨0, _⟩ => exact lhs_row _ _
      | ⟨1, _⟩ => exact (lhs_depth _ _).trans hk)
  have er : dot_S1024x2048_S2048x1024_S1024x1024_1_0_0_1_n_n.rhsIdx (ix2 p q) ((contrEquiv1 dot_S1024x2048_S2048x1024_S1024x1024_1_0_0_1_n_n 2048 rfl rfl).symm k) = ix2 k q :=
    funext fun a => Fin.ext (by
      match a with
      | ⟨0, _⟩ => exact (rhs_depth _ _).trans hk
      | ⟨1, _⟩ => exact rhs_col _ _)
  rw [el, er, transpose_ix2_apply, shapeCast_1ab_ab_apply]

/-- THE POINT'S TERM at (p, q): the scratch's entry plus the masked product. -/
theorem term_apply (i : grid0.Coords) (v3 : FVec Ideal S1024x2048 .bf16) (v5 : FVec Ideal S1x1024x2048 .bf16)
    (v9 : IVec S1024x1 32) (v15 : FVec Ideal S1024x1024 .f32) (p q : Fin 1024) :
    k0_pay2 (F := Ideal) i v3 v5 v9 v15 (ix2 p q)
      = v15 (ix2 p q) + (∑ k : Fin 2048, v3 (ix2 p k) * v5 (ix3 (0 : Fin 1) q k))
          * (if v9 (ix2 p (0 : Fin 1)) = BitVec.ofNat 32 (i 2).val then (1 : EReal) else 0) := by
  unfold k0_pay2
  simp only [shapeCast_self, matmul]
  show v15 (ix2 p q) + FloatOps.matmul dot_S1024x2048_S2048x1024_S1024x1024_1_0_0_1_n_n none v3
        (transpose S2048x1024 [1, 0] (shapeCast S1024x2048 v5 shapeCasts_S1x1024x2048_S1024x2048)
          transposes_S1024x2048_p1_0_S2048x1024)
        (constant S1024x1024 .f32 0x00000000#32) (ix2 p q)
      * broadcastTo S1024x1024
          (sitofp (F := Ideal) .f32 (extui 32 (cmpi .eq v9 (broadcast S1024x1 (BitVec.ofNat 32 (i 2).val))) natLt_1_32))
          broadcasts_S1024x1_S1024x1024 (ix2 p q) = _
  rw [product_apply, broadcastTo_a1_ab_apply]
  exact congrArg (fun g => v15 (ix2 p q) + (∑ k : Fin 2048, v3 (ix2 p k) * v5 (ix3 (0 : Fin 1) q k)) * g)
    (Cert.Routing.mask_word (v9 (ix2 p (0 : Fin 1))) (BitVec.ofNat 32 (i 2).val))

/-- THE POINT'S TERM AS A SHARE: when the loaded blocks are rows `r` of the token features `x` and of the ids `id`, and
    rows `o` of expert `e`'s weights `W`, and the point's expert coordinate is `e`, the term at (p, q) is the scratch's
    entry plus expert `e`'s share of token `r` at output feature `o` — the mask applied after the projection. -/
theorem term_share (i : grid0.Coords) (v3 : FVec Ideal S1024x2048 .bf16) (v5 : FVec Ideal S1x1024x2048 .bf16)
    (v9 : IVec S1024x1 32) (v15 : FVec Ideal S1024x1024 .f32) (p q : Fin 1024)
    (x : Cert.Routing.Tokens) (W : Cert.Routing.Weights) (id : Cert.Routing.Ids) (e : Fin 4) (r : Fin 16384) (o : Fin 3072)
    (h0 : ∀ k : Fin 2048, v3 (ix2 p k) = x (ix2 r k)) (h1 : ∀ k : Fin 2048, v5 (ix3 (0 : Fin 1) q k) = W (ix3 e o k))
    (h2 : v9 (ix2 p (0 : Fin 1)) = id (ix1 r)) (hc : (i 2).val = e.val) :
    k0_pay2 (F := Ideal) i v3 v5 v9 v15 (ix2 p q) = v15 (ix2 p q) + Cert.Routing.share x W id e r o := by
  rw [term_apply, h2, hc, Cert.Routing.mask_after]
  unfold Cert.Routing.share Cert.Routing.proj
  rw [Finset.sum_congr rfl fun k _ => show v3 (ix2 p k) * v5 (ix3 (0 : Fin 1) q k) = x (ix2 r k) * W (ix3 e o k) from by
    rw [h0 k, h1 k]]

end Cert.KernelIdeal.Term

end
-- ==== Proof.Blocks.lean ====
/-
  The blocks a grid point works on, as entries of the argument arrays.

  Point `t` of the (16, 3, 4) grid has token tile `t / 12`, output tile `(t / 4) % 3` and expert `t % 4` (the printed
  index maps, decided over the grid's 192 points: `idx_facts`). Its input blocks are rows `1024·(t/12) …` of the token
  features, rows `1024·((t/4)%3) …` of expert `t % 4`'s weights, and the same token rows of the expert ids; a block's
  entry sits in its array at block index × block size + the entry's coordinate, axis by axis.

  The arrays the windows stage are written by three host operations before the launch: two format changes of the
  features and the weights, which at the ideal values are the identity, and a reshape of the id vector [16384] to a
  column [16384, 1], which reads the vector at the row.
-/
import proofs.«175341_j76811195122155_1_alg».proof.Proof.Gen.KernelIdeal.Frame
import proofs.«175341_j76811195122155_1_alg».proof.Proof.LibColumns
import Idealize.ShloMosaic.Lib.Pipeline.Value
import Idealize.ShloMosaic.Lib.StableHlo.Run
import Idealize.ShloMosaic.Lib.ValueLayout

noncomputable section

open Idealize.ShloMosaic Idealize.ShloMosaic.TcCoe Idealize.SL.Sem

namespace Cert.KernelIdeal.Blocks

open Cert.KernelIdeal Cert.KernelIdeal.Gen Idealize.ShloMosaic.ValueIdx

variable (m : (ℓ : Loc nD τ sig) → Buf (Elt Ideal) ℓ)

/-! ## The staged arrays -/

/-- The staged token features are the argument's: the format change is the identity on extended reals. -/
theorem staged_tokens (c : Dev nD) :
    (V m c main_v0 : S16384x2048.Idx → EReal) = m ((c : Thread nD τ).loc main_arg0) := by
  dsimp only [V, hostOps0]; after_results; rfl

/-- The staged weights are the argument's, likewise. -/
theorem staged_weights (c : Dev nD) :
    (V m c main_v1 : S4x3072x2048.Idx → EReal) = m ((c : Thread nD τ).loc main_arg1) := by
  dsimp only [V, hostOps0]; after_results; rfl

/-- The staged id column is the id vector reshaped. -/
theorem staged_ids (c : Dev nD) :
    (V m c main_v2 : S16384x1.Idx → BitVec 32)
      = shapeCast S16384x1 (m ((c : Thread nD τ).loc main_arg2)) shapeCasts_S16384_S16384x1 := by
  dsimp only [V, hostOps0]; after_results; rfl

/-! ## The index maps -/

/-- The printed index maps and the expert coordinate, decided over the grid. -/
theorem idx_facts : ∀ t : Fin cfg0.N,
    win0_0.index t (0 : Fin 2) = t.val / 12 ∧ win0_0.index t (1 : Fin 2) = 0
    ∧ win0_1.index t (0 : Fin 3) = t.val % 4 ∧ win0_1.index t (1 : Fin 3) = t.val / 4 % 3 ∧ win0_1.index t (2 : Fin 3) = 0
    ∧ win0_2.index t (0 : Fin 2) = t.val / 12 ∧ win0_2.index t (1 : Fin 2) = 0
    ∧ win0_3.index t (0 : Fin 2) = t.val / 12 ∧ win0_3.index t (1 : Fin 2) = t.val / 4 % 3
    ∧ ((grid0.coords t) 2).val = t.val % 4 :=
  (by decide +kernel : ∀ t : Fin grid0.N, _)

/-! ## The blocks' entries -/

/-- Entry (p, k) of the token block at point `t` is the features at row `1024·(t/12) + p`. -/
theorem tokens_block (c : Dev nD) (t : Fin cfg0.N) (p : Fin 1024) (k : Fin 2048) (r : Fin 16384)
    (hr : r.val = 1024 * (t.val / 12) + p.val) :
    (iblk m c 0 t : S1024x2048.Idx → EReal) (ix2 p k) = m ((c : Thread nD τ).loc main_arg0) (ix2 r k) := by
  obtain ⟨e0, e1, -⟩ := idx_facts t
  unfold iblk
  rw [View.read_apply]
  show (V m c main_v0 : S16384x2048.Idx → EReal) (((cfg0.win 0).blk t).view.emb (ix2 p k)) = _
  rw [staged_tokens]
  congr 1
  funext a
  apply Fin.ext
  match a with
  | ⟨0, _⟩ => show win0_0.index t (0 : Fin 2) * 1024 + 1 * p.val = r.val; omega
  | ⟨1, _⟩ => show win0_0.index t (1 : Fin 2) * 2048 + 1 * k.val = k.val; omega

/-- Entry (0, q, k) of the weight block at point `t` is expert `t % 4`'s weights at output feature
    `1024·((t/4)%3) + q`. -/
theorem weights_block (c : Dev nD) (t : Fin cfg0.N) (q : Fin 1024) (k : Fin 2048) (e : Fin 4) (o : Fin 3072)
    (he : e.val = t.val % 4) (ho : o.val = 1024 * (t.val / 4 % 3) + q.val) :
    (iblk m c 1 t : S1x1024x2048.Idx → EReal) (ix3 (0 : Fin 1) q k) = m ((c : Thread nD τ).loc main_arg1) (ix3 e o k) := by
  obtain ⟨-, -, e2, e3, e4, -⟩ := idx_facts t
  unfold iblk
  rw [View.read_apply]
  show (V m c main_v1 : S4x3072x2048.Idx → EReal) (((cfg0.win 1).blk t).view.emb (ix3 (0 : Fin 1) q k)) = _
  rw [staged_weights]
  congr 1
  funext a
  apply Fin.ext
  match a with
  | ⟨0, _⟩ => show win0_1.index t (0 : Fin 3) * 1 + 1 * 0 = e.val; omega
  | ⟨1, _⟩ => show win0_1.index t (1 : Fin 3) * 1024 + 1 * q.val = o.val; omega
  | ⟨2, _⟩ => show win0_1.index t (2 : Fin 3) * 2048 + 1 * k.val = k.val; omega

/-- Entry (p, 0) of the id block at point `t` is the id of token `1024·(t/12) + p`. -/
theorem ids_block (c : Dev nD) (t : Fin cfg0.N) (p : Fin 1024) (r : Fin 16384)
    (hr : r.val = 1024 * (t.val / 12) + p.val) :
    (iblk m c 2 t : S1024x1.Idx → BitVec 32) (ix2 p (0 : Fin 1)) = m ((c : Thread nD τ).loc main_arg2) (ix1 r) := by
  obtain ⟨-, -, -, -, -, e5, e6, -⟩ := idx_facts t
  unfold iblk
  rw [View.read_apply]
  show (V m c main_v2 : S16384x1.Idx → BitVec 32) (((cfg0.win 2).blk t).view.emb (ix2 p (0 : Fin 1))) = _
  rw [staged_ids]
  have hi : ((cfg0.win 2).blk t).view.emb (ix2 p (0 : Fin 1)) = (ix2 r (0 : Fin 1) : S16384x1.Idx) := by
    funext a
    apply Fin.ext
    match a with
    | ⟨0, _⟩ => show win0_2.index t (0 : Fin 2) * 1024 + 1 * p.val = r.val; omega
    | ⟨1, _⟩ => show win0_2.index t (1 : Fin 2) * 1 + 1 * 0 = 0; omega
  rw [hi]
  exact shapeCast_a_a1_apply _ _ r 0

end Cert.KernelIdeal.Blocks

end
-- ==== Proof.KernelValue.lean ====
/-
  The kernel's result array is the routed projection.

  A point `n` of the grid adds to the scratch, at entry (p, q) of the tile, expert `n % 4`'s share of token
  `1024·(n/12) + p` at output feature `1024·((n/4)%3) + q` (`added_apply`: the point's term, its blocks read as
  entries of the argument arrays, the mask applied after the projection). Over the run of four points that starts at a
  reset the scratch therefore ends at zero plus the four experts' shares in order (`fold_apply`, the library's unrolled
  fold), which the last point copies into the output tile and the pipeline writes back: block (t/12, (t/4)%3) of the
  routed projection (`flushed_eq`). The sixteen by three tiles written back at the expert-3 points cover the result
  array (`covered`), so it ends holding the routed projection of the arguments (`final`, `run`).
-/
import proofs.«175341_j76811195122155_1_alg».proof.Proof.Accumulator
import proofs.«175341_j76811195122155_1_alg».proof.Proof.Term
import proofs.«175341_j76811195122155_1_alg».proof.Proof.Blocks
import proofs.«175341_j76811195122155_1_alg».proof.Proof.Routing

noncomputable section

open scoped BigOperators

open Idealize.ShloMosaic Idealize.ShloMosaic.TcCoe Idealize.SL.Sem
open Idealize.ShloMosaic.Pipeline (Dat)

namespace Cert.KernelIdeal.Routed

open Cert.KernelIdeal Cert.KernelIdeal.Gen Idealize.ShloMosaic.ValueIdx Cert.Routing

variable (m : (ℓ : Loc nD τ sig) → Buf (Elt Ideal) ℓ) (ρ : Dev nD → PrngReg)

/-- The routed projection of core `c`'s argument arrays. -/
abbrev routed (c : Dev nD) : S16384x3072.Idx → EReal :=
  out (m ((c : Thread nD τ).loc main_arg0)) (m ((c : Thread nD τ).loc main_arg1)) (m ((c : Thread nD τ).loc main_arg2))

/-- What point `n` adds at entry `j` of its tile: expert `n % 4`'s share of the tile's token row at the tile's output
    column (stated for every natural `n`; only the grid's points are used). -/
def addend (c : Dev nD) (n : ℕ) (j : S1024x1024.Idx) : EReal :=
  shareN (m ((c : Thread nD τ).loc main_arg0)) (m ((c : Thread nD τ).loc main_arg1)) (m ((c : Thread nD τ).loc main_arg2))
    (n % 4) (1024 * (n / 12) + (j 0).val) (1024 * (n / 4 % 3) + (j 1).val)

/-- A point's payload over scratch contents `acc`, at an entry: the entry of `acc` plus the point's addend. -/
theorem added_apply (c : Dev nD) (n : ℕ) (hb : n < cfg0.N) (acc : Vec Ideal S1024x1024 .f32) (j : S1024x1024.Idx) :
    Acc.added m c n hb acc j = acc j + addend m c n j := by
  obtain ⟨p, q, rfl⟩ : ∃ (p q : Fin 1024), j = ix2 p q := ⟨j 0, j 1, eq_ix2 j⟩
  have hN : n < 192 := lt_of_lt_of_eq hb N_0
  have hp : p.val < 1024 := p.isLt
  have hq : q.val < 1024 := q.isLt
  let r : Fin 16384 := ⟨1024 * (n / 12) + p.val, by omega⟩
  let e : Fin 4 := ⟨n % 4, by omega⟩
  let o : Fin 3072 := ⟨1024 * (n / 4 % 3) + q.val, by omega⟩
  have hc : ((grid0.coords (⟨n, hb⟩ : Fin cfg0.N)) 2).val = n % 4 := (Blocks.idx_facts ⟨n, hb⟩).2.2.2.2.2.2.2.2.2
  unfold Acc.added
  refine (Term.term_share (grid0.coords (⟨n, hb⟩ : Fin cfg0.N)) (iblk m c 0 (⟨n, hb⟩ : Fin cfg0.N))
    (iblk m c 1 (⟨n, hb⟩ : Fin cfg0.N)) (iblk m c 2 (⟨n, hb⟩ : Fin cfg0.N)) acc p q
    (m ((c : Thread nD τ).loc main_arg0)) (m ((c : Thread nD τ).loc main_arg1)) (m ((c : Thread nD τ).loc main_arg2)) e r o
    (fun k => Blocks.tokens_block m c ⟨n, hb⟩ p k r rfl) (fun k => Blocks.weights_block m c ⟨n, hb⟩ q k e o rfl rfl)
    (Blocks.ids_block m c ⟨n, hb⟩ p r rfl) hc).trans ?_
  exact congrArg (fun z => acc (ix2 p q) + z) (shareN_eq _ _ _ e r o).symm

/-- THE FOLD over a run of four points from a reset `b`, at an entry: zero plus the four points' addends. -/
theorem fold_apply (c : Dev nD) (b : ℕ) (hb0 : b % 4 = 0) (h : b + 3 < cfg0.N) (j : S1024x1024.Idx) :
    Pipeline.accAt (fun n h => Value.scAt0_0 m c n h (VS0_0.read (Elt Ideal) VS0_0.junk)) (Value.scAt0_0 m c) b 3 h j
      = 0 + ∑ s ∈ Finset.range (3 + 1), addend m c (b + s) j :=
  Pipeline.accAt_add_apply (fun n h => Value.scAt0_0 m c n h (VS0_0.read (Elt Ideal) VS0_0.junk)) (Value.scAt0_0 m c)
    (fun _ => (0 : EReal)) (addend m c) b 3
    (fun hb i => by
      rw [Acc.leaves_reset m c b hb _ hb0, added_apply, Term.zero_block_apply])
    (fun n hn acc i hlt hle => by
      rw [Acc.leaves_step m c n hn acc (by omega), added_apply])
    3 le_rfl h j

/-! ## What an expert-3 point writes back -/

/-- A fold of the same run with its number of steps renamed. -/
theorem accAt_steps {α : Type} {N : ℕ} (a : (n : ℕ) → n < N → α) (g : (n : ℕ) → n < N → α → α) (b j j' : ℕ) (e : j = j')
    (h : b + j < N) (h' : b + j' < N) : Pipeline.accAt a g b j h = Pipeline.accAt a g b j' h' := by
  subst e; rfl

/-- Shares at equal coordinates are equal. -/
theorem shareN_congr (x : Tokens) (W : Weights) (id : Ids) (a b d a' b' d' : ℕ) (ha : a = a') (hb : b = b') (hd : d = d') :
    shareN x W id a b d = shareN x W id a' b' d' := by
  subst ha; subst hb; subst hd; rfl

/-- WHAT POINT `t` WRITES BACK, when it writes back: block (t/12, (t/4)%3) of the routed projection. -/
theorem flushed_eq (c : Dev nD) (t : Fin cfg0.N) (hf : (cfg0.win 3).flush t = true) :
    (dats m 0 c).flushed 3 t = ((cfg0.win 3).blk t).view.read (Elt Ideal) (routed m c) := by
  have h3 : t.val % 4 = 3 := (flush0_3 t).mp hf
  have hN : t.val < 192 := lt_of_lt_of_eq t.isLt N_0
  have hb : 4 * (t.val / 4) + t.val % 4 < cfg0.N :=
    lt_of_lt_of_eq (show 4 * (t.val / 4) + t.val % 4 < 192 by omega) N_0.symm
  have hb3 : 4 * (t.val / 4) + 3 < cfg0.N := lt_of_lt_of_eq (show 4 * (t.val / 4) + 3 < 192 by omega) N_0.symm
  obtain ⟨-, -, -, -, -, -, -, e7, e8, -⟩ := Blocks.idx_facts t
  rw [Acc.flushed_fold m c t h3 hb, accAt_steps _ _ _ _ 3 h3 hb hb3]
  funext y
  show (Pipeline.accAt (fun n h => Value.scAt0_0 m c n h (VS0_0.read (Elt Ideal) VS0_0.junk)) (Value.scAt0_0 m c)
      (4 * (t.val / 4)) 3 hb3 : S1024x1024.Idx → EReal) _ = routed m c (((cfg0.win 3).blk t).view.emb y)
  rw [fold_apply m c _ (by omega) hb3]
  refine congrArg (fun z => (0 : EReal) + z) (Finset.sum_congr rfl fun s hs => ?_)
  have hs4 : s < 4 := Finset.mem_range.mp hs
  unfold addend
  refine shareN_congr _ _ _ _ _ _ _ _ _ (by omega) ?_ ?_
  · show 1024 * ((4 * (t.val / 4) + s) / 12) + (y 0).val = win0_3.index t (0 : Fin 2) * 1024 + 1 * (y 0).val
    rw [e7]; omega
  · show 1024 * ((4 * (t.val / 4) + s) / 4 % 3) + (y 1).val = win0_3.index t (1 : Fin 2) * 1024 + 1 * (y 1).val
    rw [e8]; omega

/-! ## The written-back tiles cover the result array -/

/-- An index of the result array is in point `t`'s tile iff each coordinate is in the tile's range on its axis. -/
theorem mem_tile (t : Fin cfg0.N) (i : S16384x3072.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3).slice (win0_3.rect t)).set ↔ _
  rw [View.set_slice_whole, Rect.mem_set_unit]
  exact Iff.rfl

/-- Entry (r, col) lies in the tile of the expert-3 point of token tile `r / 1024` and output tile `col / 1024`. -/
theorem covered (i : S16384x3072.Idx) :
    ∃ t : Fin cfg0.N, (cfg0.win 3).flush t = true ∧ i ∈ ((cfg0.win 3).blk t).view.set := by
  have h0 : (i 0).val < 16384 := (i 0).isLt
  have h1 : (i 1).val < 3072 := (i 1).isLt
  obtain ⟨n, hn⟩ : ∃ n : ℕ, n = 12 * ((i 0).val / 1024) + 4 * ((i 1).val / 1024) + 3 := ⟨_, rfl⟩
  have hlt : n < cfg0.N := lt_of_lt_of_eq (show n < 192 by omega) N_0.symm
  obtain ⟨-, -, -, -, -, -, -, e7, e8, -⟩ := Blocks.idx_facts ⟨n, hlt⟩
  have e7' : win0_3.index (⟨n, hlt⟩ : Fin cfg0.N) (0 : Fin 2) = n / 12 := e7
  have e8' : win0_3.index (⟨n, hlt⟩ : Fin cfg0.N) (1 : Fin 2) = n / 4 % 3 := e8
  refine ⟨⟨n, hlt⟩, (flush0_3 _).mpr (show n % 4 = 3 by omega), ?_⟩
  rw [mem_tile]
  intro a
  match a with
  | ⟨0, _⟩ =>
    show win0_3.index (⟨n, hlt⟩ : Fin cfg0.N) (0 : Fin 2) * 1024 ≤ (i 0).val
      ∧ (i 0).val < win0_3.index (⟨n, hlt⟩ : Fin cfg0.N) (0 : Fin 2) * 1024 + 1024
    rw [e7']; omega
  | ⟨1, _⟩ =>
    show win0_3.index (⟨n, hlt⟩ : Fin cfg0.N) (1 : Fin 2) * 1024 ≤ (i 1).val
      ∧ (i 1).val < win0_3.index (⟨n, hlt⟩ : Fin cfg0.N) (1 : Fin 2) * 1024 + 1024
    rw [e8']; omega

/-! ## The result array, and the run -/

/-- THE RESULT ARRAY after the run is the routed projection of the arguments. -/
theorem final (c : Dev nD) : (dats m 0 c).arrAt 3 cfg0.N = routed m c :=
  (dats m 0 c).arrAt_eq_of_cover 3 (routed m c) (flushed_eq m c) covered

/-- The kernel's run: every weakly fair execution ends with the result array at the routed projection of the
    arguments, and the arguments unchanged. -/
theorem run : θ_run defs (onTc (τ := τ) (main (F := Ideal))) ⟨m, fun _ => 0, ρ⟩ fun r => ∀ c : Dev nD,
      r.2.mem ((c : Thread nD τ).loc main_v3) = routed m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Routed

end
-- ==== Proof.Reference.lean ====
/-
  The reference, read as the routed projection.

  For each expert `e` = 0, 1, 2, 3 the reference compares the id vector with `e`, keeps a token's features where the
  ids agree and puts zero elsewhere, slices expert `e`'s [3072, 2048] weights out of the stack, contracts the two over
  the input features, and adds the result to the running total, which starts at the zero array. Entry (t, o) of the
  contraction is `Σ_k (id[t] = e ? x[t, k] : 0) · W[e, o, k]` — the expert's share of token `t`, by masking before the
  projection (`Routing.mask_before`) — and the four additions are the specification's chain.
-/
import proofs.«175341_j76811195122155_1_alg».proof.Proof.Gen.ReferenceIdeal.Read
import proofs.«175341_j76811195122155_1_alg».proof.Proof.Routing

noncomputable section

open scoped BigOperators

namespace Cert.ReferenceIdeal.Routed

open Cert.ReferenceIdeal Cert.ReferenceIdeal.Gen Cert.ReferenceIdeal.Read Idealize.ShloMosaic Idealize.ShloMosaic.ValueIdx
open Cert.Routing

/-- A contraction whose left factors are the token's features selected on "the token's id is `e`" (zero otherwise) and
    whose right factors are expert `e`'s weights is expert `e`'s share of the token. -/
theorem share_of_factors (x0 : (⟨S16384x2048, .f32⟩ : BufTy).Contents (Elt Ideal)) (x1 : (⟨S4x3072x2048, .f32⟩ : BufTy).Contents (Elt Ideal)) (x2 : (⟨S16384, .i32⟩ : BufTy).Contents (Elt Ideal))
    (e : Fin 4) (t : Fin 16384) (o : Fin 3072) (l r : Fin 2048 → EReal)
    (hl : ∀ k, l k = Scalar.select (IntOp.cmpi .eq (x2 (ix1 t)) (BitVec.ofNat 32 e.val)) (x0 (ix2 t k))
      (Ideal.ofBits .f32 0x00000000#32))
    (hr : ∀ k, r k = x1 (ix3 e o k)) :
    ∑ k : Fin 2048, l k * r k = share x0 x1 x2 e t o := by
  unfold share proj
  rw [← mask_before]
  refine Finset.sum_congr rfl fun k _ => ?_
  rw [hl k, hr k, select_on_eq, Ideal.ofBits_zero_f32]

/-- Expert 0: the masked token features against the expert's weight slice, contracted over the input features, is
    the expert's share. -/
theorem expert0_apply (x0 : (⟨S16384x2048, .f32⟩ : BufTy).Contents (Elt Ideal)) (x1 : (⟨S4x3072x2048, .f32⟩ : BufTy).Contents (Elt Ideal)) (x2 : (⟨S16384, .i32⟩ : BufTy).Contents (Elt Ideal))
    (t : Fin 16384) (o : Fin 3072) :
    val_main_v7 (F := Ideal) x0 x1 x2 (ix2 t o) = share x0 x1 x2 0 t o := by
  rw [val_main_v7_apply]
  refine share_of_factors x0 x1 x2 0 t o _ _ (fun k => ?_) (fun k => ?_)
  · have ei : idx_main_v3 (idx_main_call0_v1 (lidx_main_v7 (ix2 t o) k)) = ix1 t :=
      funext fun a => by match a with | ⟨0, _⟩ => rfl
    have ex : lidx_main_v7 (ix2 t o) k = ix2 t k :=
      funext fun a => by match a with | ⟨0, _⟩ => rfl | ⟨1, _⟩ => rfl
    rw [val_main_v4_apply, val_main_call0_v1_apply, val_main_v3_apply, val_main_v2_apply, val_main_v1_apply,
      val_main_c_apply, val_main_call0_v2_apply, val_main_call0_v0_apply, val_main_cst_0_apply, ei, ex]
    rfl
  · have ew : idx_main_v5 (idx_main_v6 (ridx_main_v7 (ix2 t o) k)) = ix3 (0 : Fin 4) o k :=
      funext fun a => Fin.ext (by
        have ho : o.val < 3072 := o.isLt
        have hk : k.val < 2048 := k.isLt
        match a with
        | ⟨0, _⟩ => show 0 + 0 = 0; omega
        | ⟨1, _⟩ => show (o.val * 2048 + k.val) / 2048 % 3072 = o.val; omega
        | ⟨2, _⟩ => show (o.val * 2048 + k.val) % 2048 = k.val; omega)
    rw [val_main_v6_apply, val_main_v5_apply, ew]

/-- Expert 1: the masked token features against the expert's weight slice, contracted over the input features, is
    the expert's share. -/
theorem expert1_apply (x0 : (⟨S16384x2048, .f32⟩ : BufTy).Contents (Elt Ideal)) (x1 : (⟨S4x3072x2048, .f32⟩ : BufTy).Contents (Elt Ideal)) (x2 : (⟨S16384, .i32⟩ : BufTy).Contents (Elt Ideal))
    (t : Fin 16384) (o : Fin 3072) :
    val_main_v15 (F := Ideal) x0 x1 x2 (ix2 t o) = share x0 x1 x2 1 t o := by
  rw [val_main_v15_apply]
  refine share_of_factors x0 x1 x2 1 t o _ _ (fun k => ?_) (fun k => ?_)
  · have ei : idx_main_v11 (idx_main_call1_v1 (lidx_main_v15 (ix2 t o) k)) = ix1 t :=
      funext fun a => by match a with | ⟨0, _⟩ => rfl
    have ex : lidx_main_v15 (ix2 t o) k = ix2 t k :=
      funext fun a => by match a with | ⟨0, _⟩ => rfl | ⟨1, _⟩ => rfl
    rw [val_main_v12_apply, val_main_call1_v1_apply, val_main_v11_apply, val_main_v10_apply, val_main_v9_apply,
      val_main_c_1_apply, val_main_call1_v2_apply, val_main_call1_v0_apply, val_main_cst_2_apply, ei, ex]
    rfl
  · have ew : idx_main_v13 (idx_main_v14 (ridx_main_v15 (ix2 t o) k)) = ix3 (1 : Fin 4) o k :=
      funext fun a => Fin.ext (by
        have ho : o.val < 3072 := o.isLt
        have hk : k.val < 2048 := k.isLt
        match a with
        | ⟨0, _⟩ => show 1 + 0 = 1; omega
        | ⟨1, _⟩ => show (o.val * 2048 + k.val) / 2048 % 3072 = o.val; omega
        | ⟨2, _⟩ => show (o.val * 2048 + k.val) % 2048 = k.val; omega)
    rw [val_main_v14_apply, val_main_v13_apply, ew]

/-- Expert 2: the masked token features against the expert's weight slice, contracted over the input features, is
    the expert's share. -/
theorem expert2_apply (x0 : (⟨S16384x2048, .f32⟩ : BufTy).Contents (Elt Ideal)) (x1 : (⟨S4x3072x2048, .f32⟩ : BufTy).Contents (Elt Ideal)) (x2 : (⟨S16384, .i32⟩ : BufTy).Contents (Elt Ideal))
    (t : Fin 16384) (o : Fin 3072) :
    val_main_v23 (F := Ideal) x0 x1 x2 (ix2 t o) = share x0 x1 x2 2 t o := by
  rw [val_main_v23_apply]
  refine share_of_factors x0 x1 x2 2 t o _ _ (fun k => ?_) (fun k => ?_)
  · have ei : idx_main_v19 (idx_main_call2_v1 (lidx_main_v23 (ix2 t o) k)) = ix1 t :=
      funext fun a => by match a with | ⟨0, _⟩ => rfl
    have ex : lidx_main_v23 (ix2 t o) k = ix2 t k :=
      funext fun a => by match a with | ⟨0, _⟩ => rfl | ⟨1, _⟩ => rfl
    rw [val_main_v20_apply, val_main_call2_v1_apply, val_main_v19_apply, val_main_v18_apply, val_main_v17_apply,
      val_main_c_3_apply, val_main_call2_v2_apply, val_main_call2_v0_apply, val_main_cst_4_apply, ei, ex]
    rfl
  · have ew : idx_main_v21 (idx_main_v22 (ridx_main_v23 (ix2 t o) k)) = ix3 (2 : Fin 4) o k :=
      funext fun a => Fin.ext (by
        have ho : o.val < 3072 := o.isLt
        have hk : k.val < 2048 := k.isLt
        match a with
        | ⟨0, _⟩ => show 2 + 0 = 2; omega
        | ⟨1, _⟩ => show (o.val * 2048 + k.val) / 2048 % 3072 = o.val; omega
        | ⟨2, _⟩ => show (o.val * 2048 + k.val) % 2048 = k.val; omega)
    rw [val_main_v22_apply, val_main_v21_apply, ew]

/-- Expert 3: the masked token features against the expert's weight slice, contracted over the input features, is
    the expert's share. -/
theorem expert3_apply (x0 : (⟨S16384x2048, .f32⟩ : BufTy).Contents (Elt Ideal)) (x1 : (⟨S4x3072x2048, .f32⟩ : BufTy).Contents (Elt Ideal)) (x2 : (⟨S16384, .i32⟩ : BufTy).Contents (Elt Ideal))
    (t : Fin 16384) (o : Fin 3072) :
    val_main_v31 (F := Ideal) x0 x1 x2 (ix2 t o) = share x0 x1 x2 3 t o := by
  rw [val_main_v31_apply]
  refine share_of_factors x0 x1 x2 3 t o _ _ (fun k => ?_) (fun k => ?_)
  · have ei : idx_main_v27 (idx_main_call3_v1 (lidx_main_v31 (ix2 t o) k)) = ix1 t :=
      funext fun a => by match a with | ⟨0, _⟩ => rfl
    have ex : lidx_main_v31 (ix2 t o) k = ix2 t k :=
      funext fun a => by match a with | ⟨0, _⟩ => rfl | ⟨1, _⟩ => rfl
    rw [val_main_v28_apply, val_main_call3_v1_apply, val_main_v27_apply, val_main_v26_apply, val_main_v25_apply,
      val_main_c_5_apply, val_main_call3_v2_apply, val_main_call3_v0_apply, val_main_cst_6_apply, ei, ex]
    rfl
  · have ew : idx_main_v29 (idx_main_v30 (ridx_main_v31 (ix2 t o) k)) = ix3 (3 : Fin 4) o k :=
      funext fun a => Fin.ext (by
        have ho : o.val < 3072 := o.isLt
        have hk : k.val < 2048 := k.isLt
        match a with
        | ⟨0, _⟩ => show 3 + 0 = 3; omega
        | ⟨1, _⟩ => show (o.val * 2048 + k.val) / 2048 % 3072 = o.val; omega
        | ⟨2, _⟩ => show (o.val * 2048 + k.val) % 2048 = k.val; omega)
    rw [val_main_v30_apply, val_main_v29_apply, ew]

/-- THE REFERENCE'S RESULT is the routed projection of its arguments. -/
theorem result_eq (x0 : (⟨S16384x2048, .f32⟩ : BufTy).Contents (Elt Ideal)) (x1 : (⟨S4x3072x2048, .f32⟩ : BufTy).Contents (Elt Ideal)) (x2 : (⟨S16384, .i32⟩ : BufTy).Contents (Elt Ideal)) :
    val_main_v32 (F := Ideal) x0 x1 x2 = out x0 x1 x2 := by
  funext i
  obtain ⟨t, o, rfl⟩ : ∃ (t : Fin 16384) (o : Fin 3072), i = ix2 t o := ⟨i 0, i 1, eq_ix2 i⟩
  rw [out_apply, val_main_v32_apply, val_main_v24_apply, val_main_v16_apply, val_main_v8_apply, val_main_v0_apply,
    val_main_cst_apply, expert0_apply, expert1_apply, expert2_apply, expert3_apply]
  show Ideal.ofBits .f32 0x00000000#32 + share x0 x1 x2 0 t o + share x0 x1 x2 1 t o + share x0 x1 x2 2 t o
      + share x0 x1 x2 3 t o = _
  rw [Ideal.ofBits_zero_f32]

end Cert.ReferenceIdeal.Routed

end
-- ==== Proof.lean ====
/-
  Tokens routed to one of four experts, projected by their expert's weights: the kernel against its reference.

  Both programs compute, for token `t` with features `x[t, ·]` and expert id `id[t]`, and output feature `o`,

      out[t, o] = (((0 + s₀) + s₁) + s₂) + s₃,   sₑ = (if id[t] = e then Σ_k x[t, k] · W[e, o, k] else 0),

  the experts added in the order 0, 1, 2, 3 from zero (`Routing.out`).

  The kernel runs on a (16, 3, 4) grid — token tile, output tile, expert, the expert innermost — and carries a
  [1024, 1024] scratch block across the four expert points of a tile: reset to zero at expert 0, at every point the
  block product of the token tile with the expert's transposed weight tile added in with row `p` multiplied by the
  float mask of token `p`, copied to the output tile and written back at expert 3. It projects first and masks the
  result. The reference masks the token features first (selecting zero where the id differs), contracts them with each
  expert's weight slice, and adds the four results up. At the ideal values — extended reals, exact operations, format
  changes the identity — a product of anything with the mask zero is zero and a product with the mask one is itself, for
  every extended real, so the two ways of masking agree entry by entry with no finiteness asked of the inputs
  (`Routing.mask_after`, `Routing.mask_before`), and both programs add the same four shares in the same order.

  The ideal pass rewrote no operation of the kernel, so its idealization is the kernel's own text read at the ideal
  values and there is nothing to preserve beyond `True`. The frames of the two kernels are their generated frame
  certificates; the reference's is its generated run with the result dropped.
-/
import proofs.«175341_j76811195122155_1_alg».proof.Defs
import proofs.«175341_j76811195122155_1_alg».proof.Proof.Gen.Kernel
import proofs.«175341_j76811195122155_1_alg».proof.Proof.Gen.Kernel.Skeleton
import proofs.«175341_j76811195122155_1_alg».proof.Proof.Gen.Kernel.Launch
import proofs.«175341_j76811195122155_1_alg».proof.Proof.Gen.Kernel.Points
import proofs.«175341_j76811195122155_1_alg».proof.Proof.Gen.Kernel.Frame
import proofs.«175341_j76811195122155_1_alg».proof.Proof.Gen.KernelIdeal
import proofs.«175341_j76811195122155_1_alg».proof.Proof.Gen.KernelIdeal.Skeleton
import proofs.«175341_j76811195122155_1_alg».proof.Proof.Gen.KernelIdeal.Launch
import proofs.«175341_j76811195122155_1_alg».proof.Proof.Gen.KernelIdeal.Points
import proofs.«175341_j76811195122155_1_alg».proof.Proof.Gen.KernelIdeal.Frame
import proofs.«175341_j76811195122155_1_alg».proof.Proof.Gen.ReferenceIdeal
import proofs.«175341_j76811195122155_1_alg».proof.Proof.Gen.Pre_finite_inputs
import proofs.«175341_j76811195122155_1_alg».proof.Proof.Gen.KernelIdeal.Value
import proofs.«175341_j76811195122155_1_alg».proof.Proof.Gen.ReferenceIdeal.Run
import proofs.«175341_j76811195122155_1_alg».proof.Proof.Gen.ReferenceIdeal.Read
import proofs.«175341_j76811195122155_1_alg».proof.Proof.KernelValue
import proofs.«175341_j76811195122155_1_alg».proof.Proof.Reference
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- At the ideal values the kernel's result array ends at the routed projection of its arguments and the reference's at
    the routed projection of its own, which agree with the kernel's: equal results, entry by entry. -/
theorem algebraic : Cert.algebraic_KernelIdeal_ReferenceIdeal := by
  intro m ρ m' ρ' _ hagree
  refine ⟨fun c => Cert.KernelIdeal.Routed.routed m c, Cert.KernelIdeal.Routed.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v32_eq, Cert.ReferenceIdeal.Routed.result_eq, (hagree c).1,
    (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
